-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x2048 : Shape := ⟨3, ![16384, 1, 2048]⟩
abbrev S_ : Shape := ⟨0, ![]⟩

class Facts : Prop where
  bcast_S_S16384x1x2048 : S_.BroadcastsInDim S16384x1x2048 (![] : Fin 0 → Fin S16384x1x2048.rank)
  reducesTo_S16384x1x2048_S_d0_1_2 : S16384x1x2048.ReducesTo [0, 1, 2] S_
  h_S_ : 0 < S_.numel

variable [Facts]

def fn_part1 {F : FTy → Type} [FloatOps F] (main_v13 : IVec S_ 1) (main_v16 : IVec S16384x1x2048 1) : IVec S_ 1 :=
  let main_c_5 : IVec S_ 1 := constantI S_ 1 1#1
  let main_v17 : IVec S_ 1 := (fun x v => Host.reduce IntOp.andi x v reducesTo_S16384x1x2048_S_d0_1_2 h_S_) main_v16 main_c_5
  let main_v18 : IVec S_ 1 := andi main_v13 main_v17
  main_v18

def fn {F : FTy → Type} [FloatOps F] (main_arg0 : FVec F S16384x1x2048 .f32) (main_arg1 : FVec F S16384x1x2048 .f32) (main_arg2 : FVec F S16384x1x2048 .f32) (main_arg3 : FVec F S16384x1x2048 .f32) : IVec S_ 1 :=
  let main_v0 : FVec F S16384x1x2048 .f32 := Host.absf main_arg0
  let main_cst : FVec F S_ .f32 := constant S_ .f32 0x7F800000#32
  let main_v1 : FVec F S16384x1x2048 .f32 := broadcastInDim S16384x1x2048 ![] bcast_S_S16384x1x2048 main_cst
  let main_v2 : IVec S16384x1x2048 1 := cmpf .olt main_v0 main_v1
  let main_c : IVec S_ 1 := constantI S_ 1 1#1
  let main_v3 : IVec S_ 1 := (fun x v => Host.reduce IntOp.andi x v reducesTo_S16384x1x2048_S_d0_1_2 h_S_) main_v2 main_c
  let main_v4 : FVec F S16384x1x2048 .f32 := Host.absf main_arg1
  let main_cst_0 : FVec F S_ .f32 := constant S_ .f32 0x7F800000#32
  let main_v5 : FVec F S16384x1x2048 .f32 := broadcastInDim S16384x1x2048 ![] bcast_S_S16384x1x2048 main_cst_0
  let main_v6 : IVec S16384x1x2048 1 := cmpf .olt main_v4 main_v5
  let main_c_1 : IVec S_ 1 := constantI S_ 1 1#1
  let main_v7 : IVec S_ 1 := (fun x v => Host.reduce IntOp.andi x v reducesTo_S16384x1x2048_S_d0_1_2 h_S_) main_v6 main_c_1
  let main_v8 : IVec S_ 1 := andi main_v3 main_v7
  let main_v9 : FVec F S16384x1x2048 .f32 := Host.absf main_arg2
  let main_cst_2 : FVec F S_ .f32 := constant S_ .f32 0x7F800000#32
  let main_v10 : FVec F S16384x1x2048 .f32 := broadcastInDim S16384x1x2048 ![] bcast_S_S16384x1x2048 main_cst_2
  let main_v11 : IVec S16384x1x2048 1 := cmpf .olt main_v9 main_v10
  let main_c_3 : IVec S_ 1 := constantI S_ 1 1#1
  let main_v12 : IVec S_ 1 := (fun x v => Host.reduce IntOp.andi x v reducesTo_S16384x1x2048_S_d0_1_2 h_S_) main_v11 main_c_3
  let main_v13 : IVec S_ 1 := andi main_v8 main_v12
  let main_v14 : FVec F S16384x1x2048 .f32 := Host.absf main_arg3
  let main_cst_4 : FVec F S_ .f32 := constant S_ .f32 0x7F800000#32
  let main_v15 : FVec F S16384x1x2048 .f32 := broadcastInDim S16384x1x2048 ![] bcast_S_S16384x1x2048 main_cst_4
  let main_v16 : IVec S16384x1x2048 1 := cmpf .olt main_v14 main_v15
  fn_part1 (F := F) main_v13 main_v16
-- ==== Kernel.lean ====
abbrev S16384x1x2048 : Shape := ⟨3, ![16384, 1, 2048]⟩
abbrev S16384x2048 : Shape := ⟨2, ![16384, 2048]⟩
abbrev S2x8x2048 : Shape := ⟨3, ![2, 8, 2048]⟩
abbrev S256x2048 : Shape := ⟨2, ![256, 2048]⟩
abbrev S1x8x2048 : Shape := ⟨3, ![1, 8, 2048]⟩
abbrev S8x2048 : Shape := ⟨2, ![8, 2048]⟩
abbrev S32x8x2048 : Shape := ⟨3, ![32, 8, 2048]⟩
abbrev S_ : Shape := ⟨0, ![]⟩
abbrev S2048 : Shape := ⟨1, ![2048]⟩

abbrev nBuf : Space → Nat
  | .hbm => 11
  | .vmem => 11
  | .smem => 0
  | _ => 0

abbrev bufTy : (tb : Table) → Fin (tcTables nBuf tb) → BufTy
  | .hbm, ⟨0, _⟩ => ⟨S16384x1x2048, .f32⟩
  | .hbm, ⟨1, _⟩ => ⟨S16384x1x2048, .f32⟩
  | .hbm, ⟨2, _⟩ => ⟨S16384x1x2048, .f32⟩
  | .hbm, ⟨3, _⟩ => ⟨S16384x1x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S2x8x2048, .f32⟩
  | .hbm, ⟨9, _⟩ => ⟨S_, .f32⟩
  | .hbm, ⟨10, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x8x2048, .f32⟩
  | .local _ .vmem, ⟨9, _⟩ => ⟨S1x8x2048, .f32⟩
  | .local _ .vmem, ⟨10, _⟩ => ⟨S8x2048, .f32⟩
  | _, _ => ⟨S16384x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v30 : BitVec 1 := Scalar.cmpi .eq arg1 c31_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384x1x2048_S16384x2048 : S16384x1x2048.ShapeCasts S16384x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S256x2048_S32x8x2048 : S256x2048.ShapeCasts S32x8x2048
  reduces_S32x8x2048_S8x2048 : S32x8x2048.Reduces [0] S8x2048
  shapeCasts_S8x2048_S1x8x2048 : S8x2048.ShapeCasts S1x8x2048
  inb_S1x8x2048_S1x8x2048_0_0_0 : ∀ a, (![0, 0, 0] : Fin 3 → Nat) a + S1x8x2048.size a ≤ S1x8x2048.size a
  h_S1x8x2048 : 0 < S1x8x2048.numel
  reducesTo_S2x8x2048_S2048_d0_1 : S2x8x2048.ReducesTo [0, 1] S2048
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x2048.size a
  hwx0_3 : ∀ i : grid0.Coords, EltTy.bits .f32 = 32 ∨ (Rect.block (s := S16384x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x2048.size a ≤ S2x8x2048.size a
  hwx0_4 : ∀ i : grid0.Coords, EltTy.bits .f32 = 32 ∨ (Rect.block (s := S2x8x2048) S1x8x2048.size (cc0_transform_4 i) (hinb0_4 i)).WholeWords (EltTy.packing .f32)

variable [Facts₀]

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x8x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x1x2048 : Shape := ⟨3, ![16384, 1, 2048]⟩
abbrev S16384x2048 : Shape := ⟨2, ![16384, 2048]⟩
abbrev S_ : Shape := ⟨0, ![]⟩
abbrev S2048 : Shape := ⟨1, ![2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x1x2048, .f32⟩
  | .hbm, ⟨1, _⟩ => ⟨S16384x1x2048, .f32⟩
  | .hbm, ⟨2, _⟩ => ⟨S16384x1x2048, .f32⟩
  | .hbm, ⟨3, _⟩ => ⟨S16384x1x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S2048, .f32⟩
  | _, _ => ⟨S16384x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S16384x1x2048_S16384x2048 : S16384x1x2048.ShapeCasts S16384x2048
  bcast_S_S16384x2048 : S_.BroadcastsInDim S16384x2048 (![] : Fin 0 → Fin S16384x2048.rank)
  reducesTo_S16384x2048_S2048_d0 : S16384x2048.ReducesTo [0] S2048
  h_S_ : 0 < S_.numel

variable [Facts₀]

class Facts : Prop extends Facts₀ where

variable [Facts]
-- ==== Proof.KlSum.lean ====
/-
  The mathematics both programs compute, stated once over the extended reals.

  For four arrays of shape [16384, 1, 2048] — the means and standard deviations of two families of normal
  distributions — the entry (r, d) of the closed-form divergence is

      kl(r, d) = 1/2 · ( (s1/s2)² + ((m1 − m2)/s2)² − 1 − log (s1/s2)² ),

  every operand read at (r, 0, d), the squares written as products of a quotient with itself, exactly as
  both programs write them. The result is the vector of column sums, `∑ r, kl(r, d)`, one entry per d < 2048.

  The two programs differ only in how that sum over the 16384 rows is grouped: one takes it in one piece; the
  other cuts the rows into 2 halves of 32 slabs of 32 groups of 8 rows, sums the 32 groups of a slab, adds
  the slabs of a half one after the other into a running total that starts at zero, and at the end adds the
  2 × 8 partial totals. Since addition on the extended reals is commutative and associative and `0 + x = x`,
  the groupings agree; no finiteness of the entries is needed for that.
-/
import Idealize.ShloMosaic.PureOps.Ideal
import Idealize.ShloMosaic.PureOps.Ideal.Laws
import Idealize.ShloMosaic.Lib.ValueIdx

noncomputable section

open scoped BigOperators

namespace Cert.KlSum

open Idealize.ShloMosaic Idealize.ShloMosaic.ValueIdx

/-- The literal one half, as both programs spell it. -/
abbrev half : EReal := Ideal.ofBits .f32 0x3F000000#32
/-- The literal one, as both programs spell it. -/
abbrev one : EReal := Ideal.ofBits .f32 0x3F800000#32

/-- The divergence of one pair of normal distributions, from their means and standard deviations:
    `1/2 · ((s1/s2)² + ((m1 − m2)/s2)² − 1 − log (s1/s2)²)`, in the order of operations both programs use. -/
def klTerm (m1 s1 m2 s2 : EReal) : EReal :=
  half * (((Ideal.div s1 s2 * Ideal.div s1 s2 + Ideal.div (m1 - m2) s2 * Ideal.div (m1 - m2) s2) - one)
    - Ideal.log (Ideal.div s1 s2 * Ideal.div s1 s2))

/-- The shape of each argument array. -/
abbrev SArg : Shape := ⟨3, ![16384, 1, 2048]⟩

/-- The divergence at row `r`, column `d` of the four argument arrays. -/
def kl (m1 s1 m2 s2 : SArg.Idx → EReal) (r : Fin 16384) (d : Fin 2048) : EReal :=
  klTerm (m1 (ix3 r 0 d)) (s1 (ix3 r 0 d)) (m2 (ix3 r 0 d)) (s2 (ix3 r 0 d))

/-- The result: at column `d`, the sum of the divergence over all 16384 rows. -/
def colSum (m1 s1 m2 s2 : SArg.Idx → EReal) : (⟨1, ![2048]⟩ : Shape).Idx → EReal :=
  fun j => ∑ r : Fin 16384, kl m1 s1 m2 s2 r (j 0)

/-- What both programs end with: the zero either sum starts from, plus the column sum. -/
def outcome (m1 s1 m2 s2 : SArg.Idx → EReal) : (⟨1, ![2048]⟩ : Shape).Idx → EReal :=
  fun j => Ideal.ofBits .f32 0x00000000#32 + colSum m1 s1 m2 s2 j

/-- The divergence with the row given as a natural number (taken modulo the number of rows, so that it is defined for
    every number; it is only ever read below 16384). -/
def klRow (m1 s1 m2 s2 : SArg.Idx → EReal) (r : ℕ) (d : Fin 2048) : EReal :=
  kl m1 s1 m2 s2 ⟨r % 16384, Nat.mod_lt _ (by decide)⟩ d

theorem klRow_of_lt (m1 s1 m2 s2 : SArg.Idx → EReal) (r : ℕ) (h : r < 16384) (d : Fin 2048) :
    klRow m1 s1 m2 s2 r d = kl m1 s1 m2 s2 ⟨r, h⟩ d :=
  congrArg (fun x => kl m1 s1 m2 s2 x d) (Fin.ext (Nat.mod_eq_of_lt h))

/-- The column sum over the rows by number. -/
theorem colSum_eq (m1 s1 m2 s2 : SArg.Idx → EReal) (d : Fin 2048) :
    colSum m1 s1 m2 s2 (ix1 d) = ∑ r : Fin 16384, klRow m1 s1 m2 s2 r.val d :=
  Finset.sum_congr rfl fun r _ => (klRow_of_lt m1 s1 m2 s2 r.val r.isLt d).symm

end Cert.KlSum

end
-- ==== Proof.RefSide.lean ====
/-
  The reference computes the common outcome.

  Its program re-lays each argument as [16384, 2048], forms the divergence entry by entry with the same operations and
  the same literals as the specification's `klTerm` (the host's quotient and logarithm are the extended reals' own),
  and sums over the rows from zero. Read at a column `d`: entry (k, d) of a re-laid argument is the argument's entry
  (k, 0, d), so the summand at row `k` is `kl … k d` and the whole is zero plus the column sum.
-/
import proofs.«144780_j3616362463298_2_alg».proof.Proof.Gen.ReferenceIdeal.Read
import proofs.«144780_j3616362463298_2_alg».proof.Proof.KlSum

noncomputable section

open scoped BigOperators

namespace Cert.ReferenceIdeal.RefValue

open Cert.ReferenceIdeal Cert.ReferenceIdeal.Gen Cert.ReferenceIdeal.Read
open Idealize.ShloMosaic Idealize.ShloMosaic.ValueIdx Cert.KlSum

/-- Entry (k, d) of a re-laid argument sits at (k, 0, d) of the argument: the same row-major position. -/
theorem relaid_index (d : Fin 2048) (k : Fin 16384) :
    idx_main_v0 (idx_main_v16 (ix1 d) k) = ix3 k (0 : Fin 1) d := by
  funext a; apply Fin.ext
  have hd : d.val < 2048 := d.isLt
  match a with
  | ⟨0, _⟩ => show (k.val * 2048 + d.val) / 2048 = k.val; omega
  | ⟨1, _⟩ => rfl
  | ⟨2, _⟩ => show (k.val * 2048 + d.val) % 2048 = d.val; omega

/-- The reference's result is zero plus the column sum of the divergence. -/
theorem ref_eq (x0 x1 x2 x3 : (⟨S16384x1x2048, .f32⟩ : BufTy).Contents (Elt Ideal)) :
    val_main_v16 (F := Ideal) x0 x1 x2 x3 = outcome x0 x1 x2 x3 := by
  funext i
  obtain ⟨d, rfl⟩ : ∃ d : Fin 2048, i = ix1 d := ⟨i 0, eq_ix1 i⟩
  rw [val_main_v16_apply]
  refine congrArg₂ (· + ·) rfl (Finset.sum_congr rfl fun k _ => ?_)
  have e0 := relaid_index d k
  have e1 : idx_main_v1 (idx_main_v16 (ix1 d) k) = ix3 k (0 : Fin 1) d := e0
  have e2 : idx_main_v2 (idx_main_v16 (ix1 d) k) = ix3 k (0 : Fin 1) d := e0
  have e3 : idx_main_v3 (idx_main_v16 (ix1 d) k) = ix3 k (0 : Fin 1) d := e0
  simp only [val_main_v15_apply, val_main_v14_apply, val_main_cst_0_apply, val_main_v13_apply, val_main_v11_apply,
    val_main_v12_apply, val_main_v9_apply, val_main_v10_apply, val_main_cst_apply, val_main_v5_apply, val_main_v8_apply,
    val_main_v4_apply, val_main_v7_apply, val_main_v6_apply, val_main_v0_apply, val_main_v1_apply, val_main_v2_apply,
    val_main_v3_apply, e0, e1, e2, e3]
  rfl

end Cert.ReferenceIdeal.RefValue

end
-- ==== Proof.Pieces.lean ====
/-
  What the body leaves, case by case, as values.

  The body's control has three cases on a grid point. At the FIRST slab of a sweep it zeroes the running total and then
  adds the slab's partial sums to it; at a MIDDLE slab it adds them to the total the slab before left; at the LAST slab
  it does the same and then copies the total out. Each case's stores cover the buffers they write, so what a buffer holds
  afterwards is the last store's value: the total after the first slab is the slab's update of the zero total, after a
  later slab the slab's update of the total before, and the block handed out at the last slab is that slab's total under
  a leading axis of length one. Stated for any float instance, on any buffers.
-/
import proofs.«144780_j3616362463298_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## On any buffers -/

/-- The first slab of a sweep: the running total becomes the slab's update of the zero total (the zero block is stored,
    read back, and the slab's partial sums added to it). -/
theorem total_A (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S1x8x2048 .f32) (h6 : a6.IsWhole) (a7 : Memref sig .tc .vmem S8x2048 .f32) (h7 : a7.IsWhole) (hc0 : cond0_0 i) (hc1 : ¬cond0_1 i)
    (x0 x1 x2 x3 : Vec F S256x2048 .f32) :
    sout0_A_0 c i a2 h2 a3 h3 a4 h4 a5 h5 a6 h6 a7 h7 hc0 hc1 x0 x1 x2 x3 = k0_pay2 x0 x1 x2 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S8x2048) hz2, View.readCov_unit_zero (S := S8x2048) _ hz2]
  simp only [View.readAt_eq_ld, h2.read_unread, h3.read_unread, h4.read_unread, h5.read_unread,
    View.ld_unit_zero (S := S256x2048) hz2]

/-- A middle slab: the running total becomes the slab's update of the total before. -/
theorem total_B (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S1x8x2048 .f32) (h6 : a6.IsWhole) (a7 : Memref sig .tc .vmem S8x2048 .f32) (h7 : a7.IsWhole) (hc0 : ¬cond0_0 i) (hc1 : ¬cond0_1 i)
    (x0 x1 x2 x3 : Vec F S256x2048 .f32) (xs : Vec F S8x2048 .f32) :
    sout0_B_0 c i a2 h2 a3 h3 a4 h4 a5 h5 a6 h6 a7 h7 hc0 hc1 x0 x1 x2 x3 xs = k0_pay2 x0 x1 x2 x3 xs := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  rw [View.canon_unit_zero hz2]
  simp only [View.readAt_eq_ld, h2.read_unread, h3.read_unread, h4.read_unread, h5.read_unread, h7.read_unread,
    View.ld_unit_zero (S := S256x2048) hz2, View.ld_unit_zero (S := S8x2048) hz2]

/-- The last slab of a sweep: the running total is updated as at a middle slab, -/
theorem total_C (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S1x8x2048 .f32) (h6 : a6.IsWhole) (a7 : Memref sig .tc .vmem S8x2048 .f32) (h7 : a7.IsWhole) (hc0 : ¬cond0_0 i) (hc1 : cond0_1 i)
    (x0 x1 x2 x3 : Vec F S256x2048 .f32) (xs : Vec F S8x2048 .f32) :
    sout0_C_0 c i a2 h2 a3 h3 a4 h4 a5 h5 a6 h6 a7 h7 hc0 hc1 x0 x1 x2 x3 xs = k0_pay2 x0 x1 x2 x3 xs := by
  unfold sout0_C_0
  rw [View.read_writes_eq_canon _ _ _ (scover0_C_0 c i a2 h2 a3 h3 a4 h4 a5 h5 a6 h6 a7 h7 hc0 hc1 x0 x1 x2 x3 xs)]
  unfold kernelRun0_C
  dsimp only
  sl_unfold_words
  rw [View.canon_unit_zero hz2]
  simp only [View.readAt_eq_ld, h2.read_unread, h3.read_unread, h4.read_unread, h5.read_unread, h7.read_unread,
    View.ld_unit_zero (S := S256x2048) hz2, View.ld_unit_zero (S := S8x2048) hz2]

/-- and the block handed out is that updated total, read back, under a leading axis of length one. -/
theorem out_C (c : Dev nD) (i : grid0.Coords) (a2 : Memref sig .tc .vmem S256x2048 .f32) (h2 : a2.IsWhole) (a3 : Memref sig .tc .vmem S256x2048 .f32) (h3 : a3.IsWhole) (a4 : Memref sig .tc .vmem S256x2048 .f32) (h4 : a4.IsWhole) (a5 : Memref sig .tc .vmem S256x2048 .f32) (h5 : a5.IsWhole) (a6 : Memref sig .tc .vmem S1x8x2048 .f32) (h6 : a6.IsWhole) (a7 : Memref sig .tc .vmem S8x2048 .f32) (h7 : a7.IsWhole) (hc0 : ¬cond0_0 i) (hc1 : cond0_1 i)
    (x0 x1 x2 x3 : Vec F S256x2048 .f32) (xs : Vec F S8x2048 .f32) :
    out0_C_4 c i a2 h2 a3 h3 a4 h4 a5 h5 a6 h6 a7 h7 hc0 hc1 x0 x1 x2 x3 xs = k0_pay3 (k0_pay2 x0 x1 x2 x3 xs) := by
  unfold out0_C_4
  rw [View.read_writes_eq_canon _ _ _ (cover0_C_4 c i a2 h2 a3 h3 a4 h4 a5 h5 a6 h6 a7 h7 hc0 hc1 x0 x1 x2 x3 xs)]
  unfold kernelRun0_C
  dsimp only
  sl_unfold_words
  rw [View.canon_unit_zero hz3, View.readCov_unit_zero (S := S8x2048) _ hz2]
  simp only [View.readAt_eq_ld, h2.read_unread, h3.read_unread, h4.read_unread, h5.read_unread, h7.read_unread,
    View.ld_unit_zero (S := S256x2048) hz2, View.ld_unit_zero (S := S8x2048) hz2]

end Cert.KernelIdeal.Pieces

end
-- ==== Proof.AtPoints.lean ====
/-
  What the body leaves at a grid point.

  `Gen.outsAt0 m c n h` is the pair (what the output's staging buffer holds, what the running total holds) after
  point `n`, defined by recursion on the point through the body's three cases. Read through them: after the first slab
  of a sweep the running total is the slab's update of the zero total; after any later slab it is the slab's update
  of the total the point before left; and at the last slab of a sweep the output's staging buffer holds the running
  total that same point leaves, under a leading axis of length one. Stated for any float instance.
-/
import proofs.«144780_j3616362463298_2_alg».proof.Proof.Pieces

noncomputable section

namespace Cert.KernelIdeal.AtPoints

open Cert.KernelIdeal Cert.KernelIdeal.Gen Cert.KernelIdeal.Pieces
open Idealize.ShloMosaic Idealize.ShloMosaic.TcCoe Idealize.ShloMosaic.Tactic Idealize.SL.Sem

variable {F : FTy → Type} [FloatOps F]
variable (m : (ℓ : Loc nD τ sig) → Buf (Elt F) ℓ)

/-- After the first slab of a sweep the running total is the slab's update of the zero total. -/
theorem total_first (c : Dev nD) (t : Fin cfg0.N) (h0 : t.val % 32 = 0) :
    (outsAt0 m c t.val t.isLt).2 = k0_pay2 (iblk m c 0 t) (iblk m c 1 t) (iblk m c 2 t) (iblk m c 3 t) (k0_pay1 (F := F)) := by
  have hN : t.val < 64 := lt_of_lt_of_eq t.isLt (show cfg0.N = 64 from N_0)
  have h1 : ¬t.val % 32 = 31 := by omega
  rw [outsAt0_A m c t h0 h1]
  dsimp only
  exact total_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (fun h => h1 ((hcond0_1 t).mp h)) (iblk m c 0 t) (iblk m c 1 t) (iblk m c 2 t) (iblk m c 3 t)

/-- After any later slab it is the slab's update of the total the point before left. -/
theorem total_later (c : Dev nD) (t : Fin cfg0.N) (h0 : ¬t.val % 32 = 0) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  by_cases h1 : t.val % 32 = 31
  · rw [outsAt0_C m c t h0 h1]
    dsimp only
    exact total_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact total_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last slab of a sweep the output's staging buffer holds the running total the same point leaves, under a
    leading axis of length one. -/
theorem out_last (c : Dev nD) (t : Fin cfg0.N) (h1 : t.val % 32 = 31) :
    (outsAt0 m c t.val t.isLt).1 = k0_pay3 (outsAt0 m c t.val t.isLt).2 := by
  have h0 : ¬t.val % 32 = 0 := by omega
  rw [outsAt0_C m c t h0 h1]
  dsimp only
  rw [total_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  exact out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end Cert.KernelIdeal.AtPoints

end
-- ==== Proof.Payload.lean ====
/-
  The body's arithmetic, read at one entry, on the extended reals.

  A slab is a [256, 2048] block of each of the four arrays. The body forms the divergence of every entry of the slab,
  regards the slab's 256 rows as 32 groups of 8 rows, sums the 32 groups, and adds the [8, 2048] result to what the
  running total held. So entry (s, d) of the new running total is the old entry (s, d) plus the sum over the groups
  `j < 32` of the divergence at row `8 * j + s`, column `d` of the slab (`pay2_apply`). The total it starts a sweep
  from is zero everywhere (`pay1_apply`), and what a sweep hands out is its running total with a leading axis of
  length one put in front (`pay3_apply`).
-/
import proofs.«144780_j3616362463298_2_alg».proof.Proof.Gen.KernelIdeal.Skeleton
import proofs.«144780_j3616362463298_2_alg».proof.Proof.KlSum
import Idealize.ShloMosaic.Lib.Pipeline.Value
import Idealize.ShloMosaic.Lib.ValueIdx
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.KlSum

/-- Row `8 * j + s` of a slab: row `s` of its group `j`. -/
abbrev slabRow (j : Fin 32) (s : Fin 8) : Fin 256 := ⟨8 * j.val + s.val, by omega⟩

/-- The slab regarded as 32 groups of 8 rows: entry (j, s, d) is the slab's entry (8 * j + s, d) — the same position in
    row-major order. -/
theorem groups_apply {α : Type} (v : S256x2048.Idx → α) (h : S256x2048.ShapeCasts S32x8x2048)
    (j : Fin 32) (s : Fin 8) (d : Fin 2048) :
    shapeCast S32x8x2048 v h (ix3 j s d) = v (ix2 (slabRow j s) d) :=
  shapeCast_apply v h (ix3 j s d) (ix2 (slabRow j s) d) (by
    rewrite [Shape.rowMajor_val_two, Shape.rowMajor_val_three]
    show (8 * j.val + s.val) * 2048 + d.val = (j.val * 8 + s.val) * 2048 + d.val
    omega)

/-- Summing over the groups: the index that reduces to (s, d) with group coordinate `j` is (j, s, d). -/
theorem lift_groups (h : S32x8x2048.Reduces [0] S8x2048) (s : Fin 8) (d : Fin 2048) (j : Fin 32) :
    h.lift (ix2 s d) j = ix3 j s d :=
  funext fun a => Fin.ext (by match a with | ⟨0, _⟩ => rfl | ⟨1, _⟩ => rfl | ⟨2, _⟩ => rfl)

/-- The total a sweep starts from is zero at every entry. -/
theorem pay1_apply (y : S8x2048.Idx) : k0_pay1 (F := Ideal) y = 0 := by
  unfold k0_pay1
  simp only [shapeCast_self]
  exact Ideal.ofBits_zero_f32

/-- Entry (s, d) of the running total after a slab: the entry before, plus the sum over the slab's 32 groups of the
    divergence at row `8 * j + s`, column `d`. -/
theorem pay2_apply (x0 x1 x2 x3 : Vec Ideal S256x2048 .f32) (xs : Vec Ideal S8x2048 .f32) (s : Fin 8) (d : Fin 2048) :
    k0_pay2 (F := Ideal) x0 x1 x2 x3 xs (ix2 s d)
      = xs (ix2 s d) + ∑ j : Fin 32, klTerm (x0 (ix2 (slabRow j s) d)) (x1 (ix2 (slabRow j s) d))
          (x2 (ix2 (slabRow j s) d)) (x3 (ix2 (slabRow j s) d)) := by
  unfold k0_pay2
  simp only [shapeCast_self]
  refine congrArg (xs (ix2 s d) + ·) ?_
  refine (Ideal.multiReduction_add_single _ 0x00000000#32 reduces_S32x8x2048_S8x2048 (.inl rfl) rfl (ix2 s d)).trans ?_
  refine Finset.sum_congr rfl fun (j : Fin 32) _ => ?_
  refine (congrArg (shapeCast S32x8x2048 _ shapeCasts_S256x2048_S32x8x2048)
    (lift_groups reduces_S32x8x2048_S8x2048 s d j)).trans ?_
  refine (groups_apply _ shapeCasts_S256x2048_S32x8x2048 j s d).trans ?_
  rfl

/-- What a sweep hands out: its running total under a leading axis of length one. -/
theorem pay3_apply (v : Vec Ideal S8x2048 .f32) (s : Fin 8) (d : Fin 2048) :
    k0_pay3 (F := Ideal) v (ix3 (0 : Fin 1) s d) = v (ix2 s d) := by
  unfold k0_pay3
  exact shapeCast_apply v shapeCasts_S8x2048_S1x8x2048 (ix3 (0 : Fin 1) s d) (ix2 s d) (by
    rewrite [Shape.rowMajor_val_two, Shape.rowMajor_val_three]
    show s.val * 2048 + d.val = ((0 : Fin 1).val * 8 + s.val) * 2048 + d.val
    simp)

end Cert.KernelIdeal.Pay

end
-- ==== Proof.Slabs.lean ====
/-
  The slabs the windows read.

  Before the region each argument array [16384, 1, 2048] is re-laid as [16384, 2048] (its middle axis of length one
  dropped: the same row-major order). Each of the four input windows then reads, at grid point `t`, the block of 256
  whole rows with block index `(t, 0)`: slab `t`. So entry (p, d) of a window's block at point `t` is the argument
  array's entry (256 * t + p, 0, d). Stated for any float instance.
-/
import proofs.«144780_j3616362463298_2_alg».proof.Proof.Gen.KernelIdeal.Frame.Runs
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Slabs

open Cert.KernelIdeal Cert.KernelIdeal.Gen
open Idealize.ShloMosaic Idealize.ShloMosaic.TcCoe Idealize.ShloMosaic.Tactic Idealize.SL.Sem
open Idealize.ShloMosaic.ValueIdx Idealize.ShloMosaic.StableHlo

variable {F : FTy → Type} [FloatOps F]
variable (m : (ℓ : Loc nD τ sig) → Buf (Elt F) ℓ)

/-- Row `p` of slab `t`, as a row of the whole batch. -/
abbrev slabRowIn (t : Fin cfg0.N) (p : Fin 256) : Fin 16384 :=
  ⟨256 * t.val + p.val, by have h : t.val < 64 := lt_of_lt_of_eq t.isLt (show cfg0.N = 64 from N_0); omega⟩

/-- Window 0's array as the region finds it: argument 0 with its middle axis of length one dropped. -/
theorem array0 (c : Dev nD) :
    (V m c main_v0 : S16384x2048.Idx → Elt F .f32)
      = shapeCast S16384x2048 (m ((c : Thread nD τ).loc main_arg0)) shapeCasts_S16384x1x2048_S16384x2048 := by
  show StableHlo.after hostOps0 (fun b => m (c, b)) (Proc.devRef .tc main_v0) = _
  after_results
  rfl

/-- Window 0's block at point `t` is slab `t`: the block index is `(t, 0)` — decided over the grid. -/
theorem index0 : ∀ t : Fin cfg0.N, win0_0.index t (0 : Fin 2) = t.val ∧ win0_0.index t (1 : Fin 2) = 0 :=
  (by decide +kernel : ∀ t : Fin grid0.N, _)

/-- Entry (p, d) of window 0's block at point `t` is argument 0 at row `256 * t + p`, column `d`. -/
theorem slab0 (c : Dev nD) (t : Fin cfg0.N) (p : Fin 256) (d : Fin 2048) :
    (iblk m c 0 t : Vec F S256x2048 .f32) (ix2 p d)
      = m ((c : Thread nD τ).loc main_arg0) (ix3 (slabRowIn t p) (0 : Fin 1) d) := by
  obtain ⟨e0, e1⟩ := index0 t
  unfold iblk
  rw [View.read_apply]
  show V m c main_v0 (((cfg0.win 0).blk t).view.emb (ix2 p d)) = _
  rw [array0 m c]
  refine shapeCast_apply _ shapeCasts_S16384x1x2048_S16384x2048 _ (ix3 (slabRowIn t p) (0 : Fin 1) d) ?_
  rewrite [Shape.rowMajor_val_three, Shape.rowMajor_val_two]
  show ((256 * t.val + p.val) * 1 + 0) * 2048 + d.val
    = (win0_0.index t (0 : Fin 2) * 256 + 1 * p.val) * 2048 + (win0_0.index t (1 : Fin 2) * 2048 + 1 * d.val)
  rw [e0, e1]
  omega

/-- Window 1's array as the region finds it: argument 1 with its middle axis of length one dropped. -/
theorem array1 (c : Dev nD) :
    (V m c main_v1 : S16384x2048.Idx → Elt F .f32)
      = shapeCast S16384x2048 (m ((c : Thread nD τ).loc main_arg1)) shapeCasts_S16384x1x2048_S16384x2048 := by
  show StableHlo.after hostOps0 (fun b => m (c, b)) (Proc.devRef .tc main_v1) = _
  after_results
  rfl

/-- Window 1's block at point `t` is slab `t`: the block index is `(t, 0)` — decided over the grid. -/
theorem index1 : ∀ t : Fin cfg0.N, win0_1.index t (0 : Fin 2) = t.val ∧ win0_1.index t (1 : Fin 2) = 0 :=
  (by decide +kernel : ∀ t : Fin grid0.N, _)

/-- Entry (p, d) of window 1's block at point `t` is argument 1 at row `256 * t + p`, column `d`. -/
theorem slab1 (c : Dev nD) (t : Fin cfg0.N) (p : Fin 256) (d : Fin 2048) :
    (iblk m c 1 t : Vec F S256x2048 .f32) (ix2 p d)
      = m ((c : Thread nD τ).loc main_arg1) (ix3 (slabRowIn t p) (0 : Fin 1) d) := by
  obtain ⟨e0, e1⟩ := index1 t
  unfold iblk
  rw [View.read_apply]
  show V m c main_v1 (((cfg0.win 1).blk t).view.emb (ix2 p d)) = _
  rw [array1 m c]
  refine shapeCast_apply _ shapeCasts_S16384x1x2048_S16384x2048 _ (ix3 (slabRowIn t p) (0 : Fin 1) d) ?_
  rewrite [Shape.rowMajor_val_three, Shape.rowMajor_val_two]
  show ((256 * t.val + p.val) * 1 + 0) * 2048 + d.val
    = (win0_1.index t (0 : Fin 2) * 256 + 1 * p.val) * 2048 + (win0_1.index t (1 : Fin 2) * 2048 + 1 * d.val)
  rw [e0, e1]
  omega

/-- Window 2's array as the region finds it: argument 2 with its middle axis of length one dropped. -/
theorem array2 (c : Dev nD) :
    (V m c main_v2 : S16384x2048.Idx → Elt F .f32)
      = shapeCast S16384x2048 (m ((c : Thread nD τ).loc main_arg2)) shapeCasts_S16384x1x2048_S16384x2048 := by
  show StableHlo.after hostOps0 (fun b => m (c, b)) (Proc.devRef .tc main_v2) = _
  after_results
  rfl

/-- Window 2's block at point `t` is slab `t`: the block index is `(t, 0)` — decided over the grid. -/
theorem index2 : ∀ t : Fin cfg0.N, win0_2.index t (0 : Fin 2) = t.val ∧ win0_2.index t (1 : Fin 2) = 0 :=
  (by decide +kernel : ∀ t : Fin grid0.N, _)

/-- Entry (p, d) of window 2's block at point `t` is argument 2 at row `256 * t + p`, column `d`. -/
theorem slab2 (c : Dev nD) (t : Fin cfg0.N) (p : Fin 256) (d : Fin 2048) :
    (iblk m c 2 t : Vec F S256x2048 .f32) (ix2 p d)
      = m ((c : Thread nD τ).loc main_arg2) (ix3 (slabRowIn t p) (0 : Fin 1) d) := by
  obtain ⟨e0, e1⟩ := index2 t
  unfold iblk
  rw [View.read_apply]
  show V m c main_v2 (((cfg0.win 2).blk t).view.emb (ix2 p d)) = _
  rw [array2 m c]
  refine shapeCast_apply _ shapeCasts_S16384x1x2048_S16384x2048 _ (ix3 (slabRowIn t p) (0 : Fin 1) d) ?_
  rewrite [Shape.rowMajor_val_three, Shape.rowMajor_val_two]
  show ((256 * t.val + p.val) * 1 + 0) * 2048 + d.val
    = (win0_2.index t (0 : Fin 2) * 256 + 1 * p.val) * 2048 + (win0_2.index t (1 : Fin 2) * 2048 + 1 * d.val)
  rw [e0, e1]
  omega

/-- Window 3's array as the region finds it: argument 3 with its middle axis of length one dropped. -/
theorem array3 (c : Dev nD) :
    (V m c main_v3 : S16384x2048.Idx → Elt F .f32)
      = shapeCast S16384x2048 (m ((c : Thread nD τ).loc main_arg3)) shapeCasts_S16384x1x2048_S16384x2048 := by
  show StableHlo.after hostOps0 (fun b => m (c, b)) (Proc.devRef .tc main_v3) = _
  after_results
  rfl

/-- Window 3's block at point `t` is slab `t`: the block index is `(t, 0)` — decided over the grid. -/
theorem index3 : ∀ t : Fin cfg0.N, win0_3.index t (0 : Fin 2) = t.val ∧ win0_3.index t (1 : Fin 2) = 0 :=
  (by decide +kernel : ∀ t : Fin grid0.N, _)

/-- Entry (p, d) of window 3's block at point `t` is argument 3 at row `256 * t + p`, column `d`. -/
theorem slab3 (c : Dev nD) (t : Fin cfg0.N) (p : Fin 256) (d : Fin 2048) :
    (iblk m c 3 t : Vec F S256x2048 .f32) (ix2 p d)
      = m ((c : Thread nD τ).loc main_arg3) (ix3 (slabRowIn t p) (0 : Fin 1) d) := by
  obtain ⟨e0, e1⟩ := index3 t
  unfold iblk
  rw [View.read_apply]
  show V m c main_v3 (((cfg0.win 3).blk t).view.emb (ix2 p d)) = _
  rw [array3 m c]
  refine shapeCast_apply _ shapeCasts_S16384x1x2048_S16384x2048 _ (ix3 (slabRowIn t p) (0 : Fin 1) d) ?_
  rewrite [Shape.rowMajor_val_three, Shape.rowMajor_val_two]
  show ((256 * t.val + p.val) * 1 + 0) * 2048 + d.val
    = (win0_3.index t (0 : Fin 2) * 256 + 1 * p.val) * 2048 + (win0_3.index t (1 : Fin 2) * 2048 + 1 * d.val)
  rw [e0, e1]
  omega

end Cert.KernelIdeal.Slabs

end
-- ==== Proof.LibSumBlocks.lean ====
/-
  A sum over Fin (a * b), read in a blocks of b: position t * b + i is entry i of block t. (A product over a row-stack of a
  planes of b rows each is the sum over the planes of each plane's product; a convolution's taps packed along the contraction
  axis, tap-major, are the sum over the taps of each tap's channels.)
-/
import Mathlib.Algebra.BigOperators.Fin
import Mathlib.Logic.Equiv.Fin.Basic

namespace Cert.Lib

open scoped BigOperators

/-- BLOCKS OF A SUM: a sum over `Fin (a * b)` is the sum over the `a` blocks of the sums over each block's `b` entries, entry
    `i` of block `t` sitting at position `i + b * t`. -/
theorem sum_blocks {M : Type*} [AddCommMonoid M] (a b : Nat) (f : Fin (a * b) → M) :
    ∑ k : Fin (a * b), f k = ∑ t : Fin a, ∑ i : Fin b, f (finProdFinEquiv (t, i)) := by
  rw [← Equiv.sum_comp finProdFinEquiv f, Fintype.sum_prod_type]

/-- The position of entry `i` of block `t`. -/
theorem finProdFinEquiv_val (a b : Nat) (t : Fin a) (i : Fin b) : (finProdFinEquiv (t, i) : Fin (a * b)).val = i.val + b * t.val := rfl

/-- The same with the position spelled out, for a function given on the naturals below `a * b`. -/
theorem sum_blocks_nat {M : Type*} [AddCommMonoid M] (a b : Nat) (g : Nat → M) :
    ∑ k : Fin (a * b), g k.val = ∑ t : Fin a, ∑ i : Fin b, g (i.val + b * t.val) := by
  rw [sum_blocks a b (fun k => g k.val)]
  rfl

end Cert.Lib
-- ==== Proof.RowGroups.lean ====
/-
  The 16384 rows, regrouped.

  Row `r` of the batch is row `8 * j + s` of slab `32 * q + b`, where a slab is 256 consecutive rows: `q < 2` is the
  half of the batch, `b < 32` the slab inside the half, `j < 32` the group of 8 rows inside the slab and `s < 8` the row
  inside the group. So a sum over all rows is the sum over `q` and `s` of the sum over `b` and `j`
  (`sum_rows`): three cuts of a sum over `a * b` consecutive indices into `a` blocks of `b`, and two exchanges of
  the order of summation. Stated in any commutative additive monoid.
-/
import proofs.«144780_j3616362463298_2_alg».proof.Proof.LibSumBlocks

namespace Cert.RowGroups

open Finset Cert.Lib

variable {M : Type*} [AddCommMonoid M]

/-- The row number of row `8 * j + s` of slab `n`. -/
abbrev rowOf (n j s : ℕ) : ℕ := 256 * n + (8 * j + s)

/-- A sum over the 16384 rows as the sum over the halves `q` and the rows-in-group `s` of the sum over the slabs `b`
    of a half and the groups `j` of a slab. -/
theorem sum_rows (f : ℕ → M) :
    ∑ r : Fin 16384, f r.val
      = ∑ q : Fin 2, ∑ s : Fin 8, ∑ b : Fin 32, ∑ j : Fin 32, f (rowOf (32 * q.val + b.val) j.val s.val) := by
  have e1 : ∑ r : Fin 16384, f r.val = ∑ q : Fin 2, ∑ i : Fin 8192, f (i.val + 8192 * q.val) :=
    sum_blocks_nat 2 8192 f
  have e2 : ∀ q : Fin 2, ∑ i : Fin 8192, f (i.val + 8192 * q.val)
      = ∑ b : Fin 32, ∑ i : Fin 256, f (i.val + 256 * b.val + 8192 * q.val) :=
    fun q => sum_blocks_nat 32 256 (fun i => f (i + 8192 * q.val))
  have e3 : ∀ (q : Fin 2) (b : Fin 32), ∑ i : Fin 256, f (i.val + 256 * b.val + 8192 * q.val)
      = ∑ j : Fin 32, ∑ s : Fin 8, f (s.val + 8 * j.val + 256 * b.val + 8192 * q.val) :=
    fun q b => sum_blocks_nat 32 8 (fun i => f (i + 256 * b.val + 8192 * q.val))
  rw [e1]
  refine sum_congr rfl fun q _ => ?_
  rw [e2 q]
  -- the sum over the slabs of the sum over (group, row in group), the row in group brought outside
  rw [show ∑ b : Fin 32, ∑ i : Fin 256, f (i.val + 256 * b.val + 8192 * q.val)
      = ∑ b : Fin 32, ∑ s : Fin 8, ∑ j : Fin 32, f (s.val + 8 * j.val + 256 * b.val + 8192 * q.val) from
    sum_congr rfl fun b _ => (e3 q b).trans sum_comm]
  rw [sum_comm]
  refine sum_congr rfl fun s _ => sum_congr rfl fun b _ => sum_congr rfl fun j _ => congrArg f ?_
  show s.val + 8 * j.val + 256 * b.val + 8192 * q.val = 256 * (32 * q.val + b.val) + (8 * j.val + s.val)
  omega

end Cert.RowGroups
-- ==== Proof.LibPeriodicTotal.lean ====
/-
  A running total that is reset at the start of every period.

  Steps are counted 0, 1, 2, …; a period has `p + 1` steps. At a step whose number is a multiple of `p + 1` the total is
  set to `0 + g n`; at every other step `g n` is added to what the step before left. Then at the LAST step of period
  `q` — step `(p + 1) * q + p` — the total is the sum of that period's `p + 1` terms, `∑ b, g ((p + 1) * q + b)`
  (`total_period_end`). This is what an accumulator zeroed under "first step of the sweep" and read out under "last step
  of the sweep" holds, one sweep after another on one grid. Everything is stated in a commutative additive monoid: only
  associativity and `0 + x = x` are used, so it holds on the extended reals with no finiteness assumed.
-/
import Mathlib.Algebra.BigOperators.Fin
import Mathlib.Algebra.BigOperators.Intervals

namespace Cert.LibPeriodicTotal

open Finset

variable {M : Type*} [AddCommMonoid M]

/-- The running total after step `n`: reset to `0 + g n` when `n` is a multiple of the period `p + 1`, otherwise the
    step before plus `g n`. -/
def total (p : ℕ) (g : ℕ → M) : ℕ → M
  | 0 => 0 + g 0
  | n + 1 => if (n + 1) % (p + 1) = 0 then 0 + g (n + 1) else total p g n + g (n + 1)

/-- At the first step of a period the total is `0 + g n`. -/
theorem total_reset (p : ℕ) (g : ℕ → M) (n : ℕ) (h : n % (p + 1) = 0) : total p g n = 0 + g n := by
  cases n with
  | zero => rfl
  | succ n => exact if_pos h

/-- At any other step the term is added to the step before. -/
theorem total_step (p : ℕ) (g : ℕ → M) (n : ℕ) (h : ¬(n + 1) % (p + 1) = 0) :
    total p g (n + 1) = total p g n + g (n + 1) := if_neg h

/-- Inside period `q`, after its step number `n ≤ p`, the total is the sum of the period's first `n + 1` terms. -/
theorem total_within (p : ℕ) (g : ℕ → M) (q : ℕ) :
    ∀ n, n ≤ p → total p g ((p + 1) * q + n) = ∑ i ∈ range (n + 1), g ((p + 1) * q + i)
  | 0, _ => by
    rw [total_reset p g _ (by rw [Nat.add_zero, Nat.mul_mod_right]), zero_add, sum_range_one]
  | n + 1, hn => by
    have hne : ¬((p + 1) * q + n + 1) % (p + 1) = 0 := by
      rw [Nat.add_assoc, Nat.mul_add_mod, Nat.mod_eq_of_lt (by omega)]; omega
    rw [show (p + 1) * q + (n + 1) = (p + 1) * q + n + 1 from rfl, total_step p g _ hne,
      total_within p g q n (by omega), sum_range_succ _ (n + 1)]
    rfl

/-- At the last step of period `q` the total is the sum of the period's `p + 1` terms. -/
theorem total_period_end (p : ℕ) (g : ℕ → M) (q : ℕ) :
    total p g ((p + 1) * q + p) = ∑ b : Fin (p + 1), g ((p + 1) * q + b.val) := by
  rw [total_within p g q p (Nat.le_refl p), Finset.sum_range]

end Cert.LibPeriodicTotal
-- ==== Proof.LibHostSumLead2.lean ====
/-
  A host sum over the two leading axes of a rank-3 array, read at an index, on the extended reals.

  `jnp.sum(x, axis=(0, 1))` of an [n0, n1, n2] array lowers to one `stablehlo.reduce` with an add body across
  dimensions [0, 1]. At the ideal instance its entry `d` is the initial value plus the sum of the entries of `x` that
  drop to `d`; those are exactly the `x (a, b, d)`, so the entry is the initial value plus the double sum over `a`
  and `b` (`hostReduceAdd_lead2`). It imports the ideal instance's laws and the index vocabulary only.
-/
import Idealize.ShloMosaic.PureOps.Ideal.Laws
import Idealize.ShloMosaic.Lib.ValueIdx

noncomputable section

open scoped BigOperators

namespace Cert.LibHostSumLead2

open Idealize.ShloMosaic Idealize.ShloMosaic.ValueIdx

variable {n0 n1 n2 : Nat}

/-- The entry (a, b, d) drops to `d` when the two leading axes are summed away. -/
theorem drop_ix3 (h : (⟨3, ![n0, n1, n2]⟩ : Shape).ReducesTo [0, 1] ⟨1, ![n2]⟩) (a : Fin n0) (b : Fin n1) (d : Fin n2) :
    h.drop (ix3 a b d) = ix1 d :=
  funext fun e => Fin.ext (by
    match e with
    | ⟨0, _⟩ => exact h.drop_apply_val_of_eq (ix3 a b d) (0 : Fin 1) (2 : Fin 3) Nat.zero_lt_one rfl)

/-- An entry that drops to `d` has last coordinate `d`. -/
theorem last_of_drop (h : (⟨3, ![n0, n1, n2]⟩ : Shape).ReducesTo [0, 1] ⟨1, ![n2]⟩)
    (i : (⟨3, ![n0, n1, n2]⟩ : Shape).Idx) (d : Fin n2) (hi : h.drop i = ix1 d) : (i 2).val = d.val := by
  have e := h.drop_apply_val_of_eq i (0 : Fin 1) (2 : Fin 3) Nat.zero_lt_one rfl
  rw [hi] at e
  exact e.symm

/-- The host's sum over the two leading axes, at entry `d`: the initial value plus the sum over both leading
    coordinates. -/
theorem hostReduceAdd_lead2 (h : (⟨3, ![n0, n1, n2]⟩ : Shape).ReducesTo [0, 1] ⟨1, ![n2]⟩)
    (x : (⟨3, ![n0, n1, n2]⟩ : Shape).Idx → EReal) (init : EReal) (d : Fin n2) :
    Ideal.hostReduceAdd h x init (ix1 d) = init + ∑ a : Fin n0, ∑ b : Fin n1, x (ix3 a b d) := by
  unfold Ideal.hostReduceAdd
  refine congrArg (init + ·) ?_
  rw [← Finset.sum_product' (s := (Finset.univ : Finset (Fin n0))) (t := (Finset.univ : Finset (Fin n1)))
    (f := fun a b => x (ix3 a b d))]
  symm
  refine Finset.sum_bij (fun p _ => ix3 p.1 p.2 d) ?_ ?_ ?_ ?_
  · intro p _
    exact Finset.mem_filter.mpr ⟨Finset.mem_univ _, drop_ix3 h p.1 p.2 d⟩
  · intro p _ p' _ e
    exact Prod.ext (congrFun e 0) (congrFun e 1)
  · intro i hi
    have hd : (i 2).val = d.val := last_of_drop h i d (Finset.mem_filter.mp hi).2
    refine ⟨(i 0, i 1), Finset.mem_product.mpr ⟨Finset.mem_univ _, Finset.mem_univ _⟩, ?_⟩
    refine (funext fun e => Fin.ext ?_ : ix3 (i 0) (i 1) d = i)
    match e with
    | ⟨0, _⟩ => rfl
    | ⟨1, _⟩ => rfl
    | ⟨2, _⟩ => exact hd.symm
  · intro p _
    rfl

end Cert.LibHostSumLead2

end
-- ==== Proof.Sweep.lean ====
/-
  One sweep after another: what the running total, the [2, 8, 2048] array and the result end holding.

  Fix an entry (s, d) of the [8, 2048] running total. Slab `n` contributes to it the sum over its 32 groups `j` of the
  divergence at row `8 * j + s` of the slab, that is at row `256 * n + 8 * j + s` of the batch (`slabTerm`). The 64
  grid points are two sweeps of 32 slabs; the total is zeroed at a sweep's first slab and handed out at its last, so
  after point `n` it holds the running total of the slabs' contributions, reset every 32 points (`totals`), and what
  sweep `q` hands out is the sum of the contributions of its 32 slabs (`halfSum`). The blocks handed out are the two
  [1, 8, 2048] halves of the [2, 8, 2048] array, which therefore ends holding `halfSum q s d` at (q, s, d)
  (`final`). The program's last line sums that array over its two leading axes from zero: the sum over all 16384
  rows, regrouped (`result_eq`).
-/
import proofs.«144780_j3616362463298_2_alg».proof.Proof.AtPoints
import proofs.«144780_j3616362463298_2_alg».proof.Proof.Payload
import proofs.«144780_j3616362463298_2_alg».proof.Proof.Slabs
import proofs.«144780_j3616362463298_2_alg».proof.Proof.RowGroups
import proofs.«144780_j3616362463298_2_alg».proof.Proof.LibPeriodicTotal
import proofs.«144780_j3616362463298_2_alg».proof.Proof.LibHostSumLead2

noncomputable section

open scoped BigOperators

namespace Cert.KernelIdeal.Sweep

open Cert.KernelIdeal Cert.KernelIdeal.Gen
open Idealize.ShloMosaic Idealize.ShloMosaic.TcCoe Idealize.ShloMosaic.Tactic Idealize.SL.Sem
open Idealize.ShloMosaic.ValueIdx Idealize.ShloMosaic.StableHlo
open Idealize.ShloMosaic.Pipeline (Dat)
open Cert.KlSum Cert.RowGroups Cert.LibPeriodicTotal Cert.KernelIdeal.Pay Cert.KernelIdeal.Slabs Cert.KernelIdeal.AtPoints

variable (m : (ℓ : Loc nD τ sig) → Buf (Elt Ideal) ℓ) (ρ : Dev nD → PrngReg)

/-- The divergence at row `r`, column `d` of core `c`'s four argument arrays. -/
def rowKl (c : Dev nD) (r : ℕ) (d : Fin 2048) : EReal :=
  klRow (m ((c : Thread nD τ).loc main_arg0)) (m ((c : Thread nD τ).loc main_arg1))
    (m ((c : Thread nD τ).loc main_arg2)) (m ((c : Thread nD τ).loc main_arg3)) r d

/-- Slab `n`'s contribution to entry (s, d) of the running total. -/
def slabTerm (c : Dev nD) (s : Fin 8) (d : Fin 2048) (n : ℕ) : EReal :=
  ∑ j : Fin 32, rowKl m c (rowOf n j.val s.val) d

/-- The body's update at point `t`, at entry (s, d): the total before plus slab `t`'s contribution. -/
theorem update_apply (c : Dev nD) (t : Fin cfg0.N) (prev : Vec Ideal S8x2048 .f32) (s : Fin 8) (d : Fin 2048) :
    k0_pay2 (F := Ideal) (iblk m c 0 t) (iblk m c 1 t) (iblk m c 2 t) (iblk m c 3 t) prev (ix2 s d)
      = prev (ix2 s d) + slabTerm m c s d t.val := by
  have hN : t.val < 64 := lt_of_lt_of_eq t.isLt (show cfg0.N = 64 from N_0)
  refine (pay2_apply (iblk m c 0 t) (iblk m c 1 t) (iblk m c 2 t) (iblk m c 3 t) prev s d).trans ?_
  refine congrArg (prev (ix2 s d) + ·) (Finset.sum_congr rfl fun j _ => ?_)
  rw [slab0 m c t (slabRow j s) d, slab1 m c t (slabRow j s) d, slab2 m c t (slabRow j s) d,
    slab3 m c t (slabRow j s) d]
  exact (klRow_of_lt _ _ _ _ (rowOf t.val j.val s.val) (by show 256 * t.val + (8 * j.val + s.val) < 16384; omega) d).symm

/-- After point `n`, entry (s, d) of the running total is the total of the slabs' contributions, reset every 32
    points: by induction on the point, through the three cases of the body. -/
theorem totals (c : Dev nD) (s : Fin 8) (d : Fin 2048) :
    ∀ (n : ℕ) (h : n < cfg0.N), (outsAt0 m c n h).2 (ix2 s d) = total 31 (slabTerm m c s d) n
  | 0, h => by
    refine (congrFun (total_first m c ⟨0, h⟩ rfl) (ix2 s d)).trans ?_
    refine (update_apply m c ⟨0, h⟩ _ s d).trans ?_
    rw [pay1_apply]
    rfl
  | k + 1, h => by
    by_cases h0 : (k + 1) % 32 = 0
    · rw [total_reset 31 _ (k + 1) h0]
      refine (congrFun (total_first m c ⟨k + 1, h⟩ h0) (ix2 s d)).trans ?_
      refine (update_apply m c ⟨k + 1, h⟩ _ s d).trans ?_
      rw [pay1_apply]
    · rw [total_step 31 _ k h0]
      refine (congrFun (total_later m c ⟨k + 1, h⟩ h0) (ix2 s d)).trans ?_
      refine (update_apply m c ⟨k + 1, h⟩ _ s d).trans ?_
      exact congrArg (· + slabTerm m c s d (k + 1)) (totals c s d k (Nat.lt_of_succ_lt h))

/-- What sweep `q` hands out at (s, d): the contributions of its 32 slabs. -/
def halfSum (c : Dev nD) (q : Fin 2) (s : Fin 8) (d : Fin 2048) : EReal :=
  ∑ b : Fin 32, slabTerm m c s d (32 * q.val + b.val)

/-- The [2, 8, 2048] array the region leaves. -/
def halves (c : Dev nD) : S2x8x2048.Idx → EReal := fun i => halfSum m c (i 0) (i 1) (i 2)

/-- At the last point of a sweep the running total is the sweep's sum. -/
theorem total_last (c : Dev nD) (s : Fin 8) (d : Fin 2048) (t : Fin cfg0.N) (h1 : t.val % 32 = 31) :
    total 31 (slabTerm m c s d) t.val = ∑ b : Fin 32, slabTerm m c s d (32 * (t.val / 32) + b.val) := by
  have key := total_period_end 31 (slabTerm m c s d) (t.val / 32)
  rwa [show (31 + 1) * (t.val / 32) + 31 = t.val from by omega] at key

/-- The output window's block at point `t` is half `t / 32` of the array: block index `(t / 32, 0, 0)` — decided over
    the grid. -/
theorem index4 : ∀ t : Fin cfg0.N, win0_4.index t (0 : Fin 3) = t.val / 32 ∧ win0_4.index t (1 : Fin 3) = 0
    ∧ win0_4.index t (2 : Fin 3) = 0 :=
  (by decide +kernel : ∀ t : Fin grid0.N, _)

/-- WHAT A SWEEP'S LAST POINT WRITES BACK is its block of `halves`. -/
theorem flushed_eq (c : Dev nD) (t : Fin cfg0.N) (hf : (cfg0.win 4).flush t = true) :
    (dats m 0 c).flushed 4 t = ((cfg0.win 4).blk t).view.read (Elt Ideal) (halves m c) := by
  have h1 : t.val % 32 = 31 := (flush0_4 t).mp hf
  have hN : t.val < 64 := lt_of_lt_of_eq t.isLt (show cfg0.N = 64 from N_0)
  obtain ⟨e0, e1, e2⟩ := index4 t
  show (cfg0.win 4).cut (grid0.coords t) ((dats m 0 c).after 4 t) = _
  rw [after0_4, out_last m c t h1]
  funext y
  obtain ⟨z, s, d, rfl⟩ : ∃ (z : Fin 1) (s : Fin 8) (d : Fin 2048), y = ix3 z s d := ⟨y 0, y 1, y 2, eq_ix3 y⟩
  obtain rfl : z = 0 := Subsingleton.elim _ _
  rw [View.read_apply]
  refine (pay3_apply _ s d).trans ?_
  refine (totals m c s d t.val t.isLt).trans ?_
  rw [total_last m c s d t h1]
  have hemb : ((cfg0.win 4).blk t).view.emb (ix3 (0 : Fin 1) s d)
      = ix3 (⟨t.val / 32, by omega⟩ : Fin 2) s d := by
    funext a; apply Fin.ext
    match a with
    | ⟨0, _⟩ => show win0_4.index t (0 : Fin 3) * 1 + 1 * (0 : Fin 1).val = t.val / 32; rw [e0]; simp
    | ⟨1, _⟩ => show win0_4.index t (1 : Fin 3) * 8 + 1 * s.val = s.val; rw [e1]; omega
    | ⟨2, _⟩ => show win0_4.index t (2 : Fin 3) * 2048 + 1 * d.val = d.val; rw [e2]; omega
  rw [hemb]
  rfl

/-- An index of the array is in point `t`'s block iff each coordinate is in the block's range on its axis. -/
theorem mem_blk (t : Fin cfg0.N) (i : S2x8x2048.Idx) :
    i ∈ ((cfg0.win 4).blk t).view.set ↔ ∀ a : Fin 3, win0_4.index t a * S1x8x2048.size a ≤ (i a).val
      ∧ (i a).val < win0_4.index t a * S1x8x2048.size a + S1x8x2048.size a := by
  show i ∈ ((View.whole main_v4).slice (win0_4.rect t)).set ↔ _
  rw [View.set_slice_whole, Rect.mem_set_unit]
  exact Iff.rfl

/-- THE ARRAY after the region: the two sweeps' blocks cover it, so it holds `halves`. -/
theorem final (c : Dev nD) : (dats m 0 c).arrAt 4 cfg0.N = halves m c :=
  (dats m 0 c).arrAt_eq_of_cover 4 (halves m c) (flushed_eq m c) fun i => by
    have hi0 : (i 0).val < 2 := (i 0).isLt
    have hi1 : (i 1).val < 8 := (i 1).isLt
    have hi2 : (i 2).val < 2048 := (i 2).isLt
    have hlt : 32 * (i 0).val + 31 < cfg0.N := by rw [show cfg0.N = 64 from N_0]; omega
    obtain ⟨e0, e1, e2⟩ := index4 ⟨32 * (i 0).val + 31, hlt⟩
    refine ⟨⟨32 * (i 0).val + 31, hlt⟩, (flush0_4 _).mpr (by show (32 * (i 0).val + 31) % 32 = 31; omega), ?_⟩
    rw [mem_blk]
    intro a
    match a with
    | ⟨0, _⟩ =>
      show win0_4.index ⟨32 * (i 0).val + 31, hlt⟩ (0 : Fin 3) * 1 ≤ (i 0).val
        ∧ (i 0).val < win0_4.index ⟨32 * (i 0).val + 31, hlt⟩ (0 : Fin 3) * 1 + 1
      rw [e0]; show (32 * (i 0).val + 31) / 32 * 1 ≤ (i 0).val ∧ (i 0).val < (32 * (i 0).val + 31) / 32 * 1 + 1; omega
    | ⟨1, _⟩ =>
      show win0_4.index ⟨32 * (i 0).val + 31, hlt⟩ (1 : Fin 3) * 8 ≤ (i 1).val
        ∧ (i 1).val < win0_4.index ⟨32 * (i 0).val + 31, hlt⟩ (1 : Fin 3) * 8 + 8
      rw [e1]; omega
    | ⟨2, _⟩ =>
      show win0_4.index ⟨32 * (i 0).val + 31, hlt⟩ (2 : Fin 3) * 2048 ≤ (i 2).val
        ∧ (i 2).val < win0_4.index ⟨32 * (i 0).val + 31, hlt⟩ (2 : Fin 3) * 2048 + 2048
      rw [e2]; omega

end Cert.KernelIdeal.Sweep

end
-- ==== Proof.Result.lean ====
/-
  The idealized kernel's run, read: its result is the common outcome.

  After the region the [2, 8, 2048] array holds, at (q, s, d), the sum of the divergence over the rows
  `256 * (32 * q + b) + 8 * j + s` for `b, j < 32`. The program's last line sums that array over its two leading axes,
  starting from the zero constant: at column `d` that is zero plus the sum over `q < 2` and `s < 8` of those sums, and
  every row below 16384 is `256 * (32 * q + b) + 8 * j + s` for exactly one (q, b, j, s) — so it is zero plus the
  sum of the divergence over all rows, the outcome the reference reaches too.
-/
import proofs.«144780_j3616362463298_2_alg».proof.Proof.Sweep
import Idealize.ShloMosaic.Lib.StableHlo.Run

noncomputable section

open scoped BigOperators

namespace Cert.KernelIdeal.Result

open Cert.KernelIdeal Cert.KernelIdeal.Gen
open Idealize.ShloMosaic Idealize.ShloMosaic.TcCoe Idealize.ShloMosaic.Tactic Idealize.SL.Sem
open Idealize.ShloMosaic.ValueIdx Idealize.ShloMosaic.StableHlo
open Idealize.ShloMosaic.Pipeline (Dat)
open Cert.KlSum Cert.RowGroups Cert.KernelIdeal.Sweep Cert.LibHostSumLead2

variable (m : (ℓ : Loc nD τ sig) → Buf (Elt Ideal) ℓ) (ρ : Dev nD → PrngReg)

/-- The common outcome of core `c`'s four argument arrays, as contents of the result buffer. -/
abbrev outcomeOf (c : Dev nD) : Buf (Elt Ideal) ((c : Thread nD τ).loc main_v5) :=
  outcome (m ((c : Thread nD τ).loc main_arg0)) (m ((c : Thread nD τ).loc main_arg1))
    (m ((c : Thread nD τ).loc main_arg2)) (m ((c : Thread nD τ).loc main_arg3))

/-- Summing what the two sweeps hand out over the sweeps and the 8 rows of a group is the sum over all rows. -/
theorem halves_sum (c : Dev nD) (d : Fin 2048) :
    ∑ q : Fin 2, ∑ s : Fin 8, halves m c (ix3 q s d)
      = colSum (m ((c : Thread nD τ).loc main_arg0)) (m ((c : Thread nD τ).loc main_arg1))
          (m ((c : Thread nD τ).loc main_arg2)) (m ((c : Thread nD τ).loc main_arg3)) (ix1 d) := by
  rw [colSum_eq]
  exact (sum_rows (fun r => rowKl m c r d)).symm

/-- The host's sum of that array over its two leading axes, from the zero constant, is the outcome. -/
theorem reduce_halves (c : Dev nD) :
    Host.reduceAdd (F := Ideal) (halves m c) (constant (F := Ideal) S_ .f32 0x00000000#32)
      reducesTo_S2x8x2048_S2048_d0_1 h_S_ = outcomeOf m c := by
  funext i
  obtain ⟨d, rfl⟩ : ∃ d : Fin 2048, i = ix1 d := ⟨i 0, eq_ix1 i⟩
  simp only [Host.reduceAdd, Ideal.hostReduceAdd_def]
  rw [hostReduceAdd_lead2]
  exact congrArg₂ (· + ·) rfl (halves_sum m c d)

/-- What the lines after the region leave in the result buffer. -/
theorem tail_eq (c : Dev nD) :
    Pipeline.afterTail₀ cfgs (dats m) 0 (V0 m) [hostOps1] c main_v5 = outcomeOf m c := by
  unfold Pipeline.afterTail₀
  show StableHlo.after hostOps1 _ (Proc.devRef .tc main_v5) = _
  after_results
  have harr : Pipeline.withArrays (cfgs 0).spec c (V0 m c) (fun w => (dats m 0 c).arrAt w (cfgs 0).N)
      (Proc.devRef .tc main_v4) = halves m c :=
    (Pipeline.withArrays_arr spec0 launch0.win.arr_inj c _ _ 4).trans (final m c)
  rw [harr]
  exact reduce_halves m c

/-- The run, read: every weakly fair execution of the idealized kernel's program ends with the result buffer at the
    outcome and the four arguments unchanged. -/
theorem run : θ_run defs (onTc (τ := τ) (main (F := Ideal))) ⟨m, fun _ => 0, ρ⟩ fun r => ∀ c : Dev nD,
      r.2.mem ((c.tc : Thread nD τ).loc main_v5) = outcomeOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  The divergence of two families of normal distributions, summed over the batch: the kernel against its reference.

  Both programs take the means and standard deviations `mean1, std1, mean2, std2` of shape [16384, 1, 2048] and return,
  for each of the 2048 columns `d`, the sum over the 16384 rows `r` of

      kl(r, d) = 1/2 · ( (s1/s2)² + ((m1 − m2)/s2)² − 1 − log (s1/s2)² )          (Proof/KlSum.lean).

  The reference forms `kl` entry by entry and sums over the rows in one piece, from zero (Proof/RefSide.lean, over the
  generated reading of its run). The kernel sweeps each half of the batch in 32 slabs of 256 rows; per slab it forms the
  same `kl` with the same operations and literals, sums the slab's 32 groups of 8 rows into an [8, 2048] partial sum
  (Proof/Payload.lean, Proof/Slabs.lean) and adds it to a running total that is zeroed at a sweep's first slab and handed
  out at its last (Proof/Pieces.lean, Proof/AtPoints.lean, over the generated frame's case analysis); so a sweep hands
  out the sum of its 32 slabs' partial sums (Proof/Sweep.lean, by induction on the grid point), and the final host line
  adds the 2 × 8 totals per column, from zero (Proof/Result.lean). Every row is row `8 * j + s` of slab `32 * q + b`
  for exactly one (q, b, j, s), so the two results are the same sum regrouped (Proof/RowGroups.lean): equal on the
  extended reals by commutativity and associativity of addition and `0 + x = x`, with no appeal to the finiteness of
  the inputs. The idealization rewrote nothing in the kernel, so `preserves` is trivial; the three frames are the
  generated frame runs (the reference's, its generated run with the result dropped).
-/
import proofs.«144780_j3616362463298_2_alg».proof.Defs
import proofs.«144780_j3616362463298_2_alg».proof.Proof.Gen.Kernel
import proofs.«144780_j3616362463298_2_alg».proof.Proof.Gen.Kernel.Skeleton
import proofs.«144780_j3616362463298_2_alg».proof.Proof.Gen.Kernel.Launch
import proofs.«144780_j3616362463298_2_alg».proof.Proof.Gen.Kernel.Points
import proofs.«144780_j3616362463298_2_alg».proof.Proof.Gen.Kernel.Frame
import proofs.«144780_j3616362463298_2_alg».proof.Proof.Gen.KernelIdeal
import proofs.«144780_j3616362463298_2_alg».proof.Proof.Gen.KernelIdeal.Skeleton
import proofs.«144780_j3616362463298_2_alg».proof.Proof.Gen.KernelIdeal.Launch
import proofs.«144780_j3616362463298_2_alg».proof.Proof.Gen.KernelIdeal.Points
import proofs.«144780_j3616362463298_2_alg».proof.Proof.Gen.KernelIdeal.Frame
import proofs.«144780_j3616362463298_2_alg».proof.Proof.Gen.ReferenceIdeal
import proofs.«144780_j3616362463298_2_alg».proof.Proof.Gen.Pre_finite_inputs
import proofs.«144780_j3616362463298_2_alg».proof.Proof.Gen.ReferenceIdeal.Run
import proofs.«144780_j3616362463298_2_alg».proof.Proof.Gen.ReferenceIdeal.Read
import proofs.«144780_j3616362463298_2_alg».proof.Proof.KlSum
import proofs.«144780_j3616362463298_2_alg».proof.Proof.RefSide
import proofs.«144780_j3616362463298_2_alg».proof.Proof.Result
import Idealize.ShloMosaic.Adequacy
import Idealize.ShloMosaic.Init

noncomputable section

namespace Cert.Proof

open Idealize.ShloMosaic Idealize.SL.Sem

/-- The kernel as printed runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the arguments, both idealized programs end with the result at zero plus the column sum
    of the divergence of those arguments. -/
theorem algebraic : Cert.algebraic_KernelIdeal_ReferenceIdeal := by
  intro m ρ m' ρ' _ hagree
  refine ⟨fun c => Cert.KernelIdeal.Result.outcomeOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
